-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x2048, .f32⟩
  | .local _ .vmem, ⟨9, _⟩ => ⟨S1x1024x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .f32 = 32 ∨ (Rect.block (s := S16x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .f32 = 32 ∨ (Rect.block (s := S16x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S16x2048x2048.size a
  hwx0_4 : ∀ i : grid0.Coords, EltTy.bits .f32 = 32 ∨ (Rect.block (s := S16x2048x2048) S1x1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048x1, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Attention.lean ====
/-
  Softmax attention, one query row at a time.

  A query row q (64 features) is scored against each of the 2048 keys of its batch by the dot product
  s(l) = Σ_d q(d) · K(l, d).  The row's scores are shifted by their maximum (taken from −∞), exponentiated,
  and divided by their sum: p(l) = e^(s(l) − max s) / Σ_l' e^(s(l') − max s).  The output row is the
  probabilities' mix of the values, o(d) = Σ_l p(l) · V(l, d).  Every row of the two results depends on one
  query row and on the keys and values of that row's batch only; the whole arrays below are these rows laid
  side by side.  All arithmetic is on the extended reals.
-/
import Idealize.ShloMosaic.Lib.ValueIdx
import Idealize.ShloMosaic.PureOps.Ideal.Laws

noncomputable section

namespace Cert.Attention

open Idealize.ShloMosaic Idealize.ShloMosaic.ValueIdx
open scoped BigOperators

/-! ## One query row -/

/-- The score of the query row against key `l`: their dot product over the 64 features. -/
def score (qrow : Fin 64 → EReal) (K : Fin 2048 → Fin 64 → EReal) (l : Fin 2048) : EReal :=
  ∑ d : Fin 64, qrow d * K l d

/-- The row's largest score, the maximum over the 2048 keys taken from −∞. -/
def top (qrow : Fin 64 → EReal) (K : Fin 2048 → Fin 64 → EReal) : EReal :=
  (Finset.univ : Finset (Fin 2048)).fold max (Ideal.ofBits .f32 0xFF800000#32) (fun l => score qrow K l)

/-- Key `l`'s unnormalised weight: e to the score shifted by the row's largest score. -/
def weight (qrow : Fin 64 → EReal) (K : Fin 2048 → Fin 64 → EReal) (l : Fin 2048) : EReal :=
  Ideal.exp (score qrow K l - top qrow K)

/-- The row's normaliser: the sum of the weights. -/
def total (qrow : Fin 64 → EReal) (K : Fin 2048 → Fin 64 → EReal) : EReal :=
  ∑ l : Fin 2048, weight qrow K l

/-- Key `l`'s probability: its weight over the normaliser. -/
def prob (qrow : Fin 64 → EReal) (K : Fin 2048 → Fin 64 → EReal) (l : Fin 2048) : EReal :=
  Ideal.div (weight qrow K l) (total qrow K)

/-- Feature `d` of the output row: the values mixed by the probabilities. -/
def mix (qrow : Fin 64 → EReal) (K V : Fin 2048 → Fin 64 → EReal) (d : Fin 64) : EReal :=
  ∑ l : Fin 2048, prob qrow K l * V l d

/-! ## The whole arrays -/

/-- Row `r` of batch `b` of a [16, 2048, 64] array. -/
def rowOf (x : (⟨3, ![16, 2048, 64]⟩ : Shape).Idx → EReal) (b : Fin 16) (r : Fin 2048) : Fin 64 → EReal :=
  fun d => x (ix3 b r d)

/-- Batch `b` of a [16, 2048, 64] array, as a 2048 × 64 matrix. -/
def matOf (x : (⟨3, ![16, 2048, 64]⟩ : Shape).Idx → EReal) (b : Fin 16) : Fin 2048 → Fin 64 → EReal :=
  fun l d => x (ix3 b l d)

/-- The attention weights: at (b, r, l) the probability of key `l` for query row `r` of batch `b`. -/
def weights (q k : (⟨3, ![16, 2048, 64]⟩ : Shape).Idx → EReal) : (⟨3, ![16, 2048, 2048]⟩ : Shape).Idx → EReal :=
  fun i => prob (rowOf q ⟨(i 0).val, (i 0).isLt⟩ ⟨(i 1).val, (i 1).isLt⟩) (matOf k ⟨(i 0).val, (i 0).isLt⟩) ⟨(i 2).val, (i 2).isLt⟩

/-- The context: at (b, r, d) feature `d` of the output row for query row `r` of batch `b`. -/
def context (q k v : (⟨3, ![16, 2048, 64]⟩ : Shape).Idx → EReal) : (⟨3, ![16, 2048, 64]⟩ : Shape).Idx → EReal :=
  fun i => mix (rowOf q ⟨(i 0).val, (i 0).isLt⟩ ⟨(i 1).val, (i 1).isLt⟩) (matOf k ⟨(i 0).val, (i 0).isLt⟩)
    (matOf v ⟨(i 0).val, (i 0).isLt⟩) ⟨(i 2).val, (i 2).isLt⟩

theorem weights_apply (q k : (⟨3, ![16, 2048, 64]⟩ : Shape).Idx → EReal) (b : Fin 16) (r l : Fin 2048) :
    weights q k (ix3 b r l) = prob (rowOf q b r) (matOf k b) l := rfl

theorem context_apply (q k v : (⟨3, ![16, 2048, 64]⟩ : Shape).Idx → EReal) (b : Fin 16) (r : Fin 2048) (d : Fin 64) :
    context q k v (ix3 b r d) = mix (rowOf q b r) (matOf k b) (matOf v b) d := rfl

/-- The maximum with −∞ changes nothing: −∞ is the least extended real. -/
theorem max_negInf (y : EReal) : max (Ideal.ofBits .f32 0xFF800000#32) y = y := by
  simp [Ideal.ofBits, Ideal.ieee]

end Cert.Attention

end
-- ==== Proof.RefAttention.lean ====
/-
  The reference's two results are the row-by-row attention of `Attention.lean`.

  Read at an index (b, r, l), the reference's score is the dot product of query row (b, r) with key (b, l);
  its row maximum is the maximum of the row's scores from −∞, and the further maximum with −∞ it takes
  changes nothing; the exponentials, their row sum from 0, the quotient and the product with the values
  follow operation by operation.
-/
import proofs.«166827_j77730318123152_2_alg».proof.Proof.Gen.ReferenceIdeal.Read
import proofs.«166827_j77730318123152_2_alg».proof.Proof.Attention

noncomputable section

namespace Cert.RefAttention

open Idealize.ShloMosaic Idealize.ShloMosaic.ValueIdx
open Cert.ReferenceIdeal Cert.ReferenceIdeal.Gen Cert.ReferenceIdeal.Read Cert.Attention
open scoped BigOperators

/-! ## The composed index maps at coordinates -/

theorem lidx_v0 (b : Fin 16) (r c : Fin 2048) (d : Fin 64) : lidx_main_v0 (ix3 b r c) d = ix3 b r d :=
  funext fun a => Fin.ext (by match a with | ⟨0, _⟩ => rfl | ⟨1, _⟩ => rfl | ⟨2, _⟩ => rfl)

theorem ridx_v0 (b : Fin 16) (r c : Fin 2048) (d : Fin 64) : ridx_main_v0 (ix3 b r c) d = ix3 b c d :=
  funext fun a => Fin.ext (by match a with | ⟨0, _⟩ => rfl | ⟨1, _⟩ => rfl | ⟨2, _⟩ => rfl)

theorem idx_v5 (b : Fin 16) (r c : Fin 2048) : idx_main_v4 (idx_main_v5 (ix3 b r c)) = ix2 b r :=
  funext fun a => Fin.ext (by match a with | ⟨0, _⟩ => rfl | ⟨1, _⟩ => rfl)

theorem idx_v10 (b : Fin 16) (r c : Fin 2048) : idx_main_v9 (idx_main_v10 (ix3 b r c)) = ix2 b r :=
  funext fun a => Fin.ext (by match a with | ⟨0, _⟩ => rfl | ⟨1, _⟩ => rfl)

theorem idx_v8 (b : Fin 16) (r : Fin 2048) (l : Fin 2048) : idx_main_v8 (ix2 b r) l = ix3 b r l :=
  funext fun a => Fin.ext (by match a with | ⟨0, _⟩ => rfl | ⟨1, _⟩ => rfl | ⟨2, _⟩ => rfl)

theorem lidx_v12 (b : Fin 16) (r : Fin 2048) (d : Fin 64) (l : Fin 2048) : lidx_main_v12 (ix3 b r d) l = ix3 b r l :=
  funext fun a => Fin.ext (by match a with | ⟨0, _⟩ => rfl | ⟨1, _⟩ => rfl | ⟨2, _⟩ => rfl)

theorem ridx_v12 (b : Fin 16) (r : Fin 2048) (d : Fin 64) (l : Fin 2048) : ridx_main_v12 (ix3 b r d) l = ix3 b l d :=
  funext fun a => Fin.ext (by match a with | ⟨0, _⟩ => rfl | ⟨1, _⟩ => rfl | ⟨2, _⟩ => rfl)

/-! ## The stages at coordinates -/

variable (q k v : (⟨S16x2048x64, .f32⟩ : BufTy).Contents (Elt Ideal))

/-- The scores: query row (b, r) against key (b, l). -/
theorem scores_apply (b : Fin 16) (r l : Fin 2048) :
    val_main_v0 (F := Ideal) q k (ix3 b r l) = score (rowOf q b r) (matOf k b) l := by
  rw [val_main_v0_apply]
  exact Finset.sum_congr rfl fun d _ => by rw [lidx_v0, ridx_v0]; rfl

/-- The reduced index (b, r) with key `l` put back on the last axis is (b, r, l). -/
theorem lift_ix2 (h : S16x2048x2048.Reduces [2] S16x2048) (b : Fin 16) (r : Fin 2048) (l : Fin (S16x2048x2048.size 2)) :
    h.lift (ix2 b r) l = ix3 b r (⟨l.val, l.isLt⟩ : Fin 2048) :=
  funext fun a => Fin.ext (by match a with | ⟨0, _⟩ => rfl | ⟨1, _⟩ => rfl | ⟨2, _⟩ => rfl)

/-- The row maximum: from −∞, over the keys, of the row's scores. -/
theorem rowmax_apply (b : Fin 16) (r : Fin 2048) :
    val_main_v1 (F := Ideal) q k (ix2 b r) = top (rowOf q b r) (matOf k b) := by
  unfold val_main_v1
  have h : S16x2048x2048.Reduces [2] S16x2048 := by decide
  rw [Host.reduce_eq_fold_single FloatOps.maximumf _ _ reducesTo_S16x2048x2048_S16x2048_d2 h h_S_]
  unfold top
  refine congrArg (fun f => (Finset.univ : Finset (Fin 2048)).fold max (Ideal.ofBits .f32 0xFF800000#32) f) (funext fun l => ?_)
  show val_main_v0 (F := Ideal) q k (h.lift (ix2 b r) l) = _
  rw [lift_ix2, scores_apply]
  rfl

/-- The maximum the reference then takes with −∞ leaves the row maximum as it is. -/
theorem shift_apply (b : Fin 16) (r : Fin 2048) :
    val_main_v3 (F := Ideal) q k (ix2 b r) = top (rowOf q b r) (matOf k b) := by
  rw [val_main_v3_apply, val_main_v2_apply, val_main_cst_0_apply, rowmax_apply]
  exact max_negInf _

/-- The weights: e to the shifted score. -/
theorem weight_apply (b : Fin 16) (r l : Fin 2048) :
    val_main_v7 (F := Ideal) q k (ix3 b r l) = weight (rowOf q b r) (matOf k b) l := by
  rw [val_main_v7_apply, val_main_v6_apply, val_main_v5_apply, val_main_v4_apply, idx_v5, shift_apply, scores_apply]
  rfl

/-- The normaliser: the row's weights summed from 0. -/
theorem total_apply (b : Fin 16) (r : Fin 2048) :
    val_main_v8 (F := Ideal) q k (ix2 b r) = total (rowOf q b r) (matOf k b) := by
  rw [val_main_v8_apply, val_main_cst_1_apply]
  show Ideal.ofBits .f32 0x00000000#32 + _ = _
  rw [Ideal.ofBits_zero_f32, zero_add]
  exact Finset.sum_congr rfl fun l _ => by rw [idx_v8, weight_apply]

/-- The attention weights at (b, r, l). -/
theorem prob_apply (b : Fin 16) (r l : Fin 2048) :
    val_main_v11 (F := Ideal) q k (ix3 b r l) = prob (rowOf q b r) (matOf k b) l := by
  rw [val_main_v11_apply, val_main_v10_apply, val_main_v9_apply, idx_v10, total_apply, weight_apply]
  rfl

/-- The reference's second result is the attention weights. -/
theorem weights_eq : val_main_v11 (F := Ideal) q k = weights q k := by
  funext i
  obtain ⟨b, r, l, rfl⟩ : ∃ (b : Fin 16) (r l : Fin 2048), i = ix3 b r l := ⟨i 0, i 1, i 2, eq_ix3 i⟩
  rw [prob_apply, weights_apply]

/-- The reference's first result is the context. -/
theorem context_eq : val_main_v12 (F := Ideal) q k v = context q k v := by
  funext i
  obtain ⟨b, r, d, rfl⟩ : ∃ (b : Fin 16) (r : Fin 2048) (d : Fin 64), i = ix3 b r d := ⟨i 0, i 1, i 2, eq_ix3 i⟩
  rw [val_main_v12_apply, context_apply]
  exact Finset.sum_congr rfl fun l _ => by rw [lidx_v12, ridx_v12, prob_apply]; rfl

end Cert.RefAttention

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.BodyAttention.lean ====
/-
  What the kernel's body computes from its three loaded blocks, index by index.

  The body holds a block of 1024 query rows and the 2048 keys and values of their batch.  Its first matrix
  product, contracted over the 64 features, gives each row's scores; the lane maximum from −∞, kept as a
  column and broadcast back, shifts the scores; the exponentials are divided by their lane sum, kept and
  broadcast the same way; the second matrix product, contracted over the 2048 keys, mixes the values.  So row
  p of the stored probabilities and of the stored context is the attention of `Attention.lean` for query row p
  of the block against the loaded keys and values.
-/
import proofs.«166827_j77730318123152_2_alg».proof.Proof.Gen.KernelIdeal.Skeleton
import proofs.«166827_j77730318123152_2_alg».proof.Proof.Attention
import proofs.«166827_j77730318123152_2_alg».proof.Proof.LibColumns
import Idealize.ShloMosaic.Lib.ValueLayout
import Idealize.ShloMosaic.Lib.ValueIdx
import Idealize.ShloMosaic.PureOps.Ideal.Laws

noncomputable section

namespace Cert.BodyAttention

open Idealize.ShloMosaic Idealize.ShloMosaic.ValueIdx
open Cert.KernelIdeal Cert.KernelIdeal.Gen Cert.Attention Cert.Columns
open scoped BigOperators

/-- Row `p` of a loaded block of query rows. -/
def qRow (P0 : Vec Ideal S1x1024x64 .f32) (p : Fin 1024) : Fin 64 → EReal := fun d => P0 (ix3 (0 : Fin 1) p d)

/-- A loaded block of keys or of values, as a 2048 × 64 matrix. -/
def kvMat (P : Vec Ideal S1x2048x64 .f32) : Fin 2048 → Fin 64 → EReal := fun l d => P (ix3 (0 : Fin 1) l d)

/-! ## The score product: rows × features times keys × features, contracted over the features -/

abbrev dotQK := dot_S1024x64_S2048x64_S1024x2048_1_1_0_0_n_n

theorem dotQK_lhs0 (i : S1024x2048.Idx) (q : dotQK.contr.Idx) : (dotQK.lhsIdx i q 0).val = (i 0).val := by
  unfold DotDims.lhsIdx
  rw [dif_neg (show ¬(0 : Fin S1024x64.rank) ∈ dotQK.lhsBatch by decide), dif_pos (show (0 : Fin S1024x64.rank) ∈ dotQK.lhsNonContracting by decide)]
  rfl
theorem dotQK_lhs1 (i : S1024x2048.Idx) (q : dotQK.contr.Idx) : (dotQK.lhsIdx i q 1).val = (q ⟨0, by decide⟩).val :=
  dotQK.lhsIdx_val_of_single rfl i q
theorem dotQK_rhs0 (i : S1024x2048.Idx) (q : dotQK.contr.Idx) : (dotQK.rhsIdx i q 0).val = (i 1).val := by
  unfold DotDims.rhsIdx
  rw [dif_neg (show ¬(0 : Fin S2048x64.rank) ∈ dotQK.rhsBatch by decide), dif_pos (show (0 : Fin S2048x64.rank) ∈ dotQK.rhsNonContracting by decide)]
  rfl
theorem dotQK_rhs1 (i : S1024x2048.Idx) (q : dotQK.contr.Idx) : (dotQK.rhsIdx i q 1).val = (q ⟨0, by decide⟩).val :=
  dotQK.rhsIdx_val_of_single rfl i q

/-- The score product into the zero accumulator, at (p, l): the sum over the features of left (p, d) · right (l, d). -/
theorem matmulQK_apply (A : FVec Ideal S1024x64 .f32) (B : FVec Ideal S2048x64 .f32) (p : Fin 1024) (l : Fin 2048) :
    matmul dotQK (some .fp32) A B (constant (F := Ideal) S1024x2048 .f32 0x00000000#32) (ix2 p l)
      = ∑ d : Fin 64, A (ix2 p d) * B (ix2 l d) := by
  show FloatOps.matmul dotQK (some .fp32) A B (constant (F := Ideal) S1024x2048 .f32 0x00000000#32) (ix2 p l) = _
  rw [Ideal.matmul_constant_zero_apply, ← Equiv.sum_comp (contrEquiv1 dotQK 64 rfl rfl).symm]
  refine Finset.sum_congr rfl fun d _ => ?_
  have hd := contrEquiv1_symm_val dotQK 64 rfl rfl d
  have el : dotQK.lhsIdx (ix2 p l) ((contrEquiv1 dotQK 64 rfl rfl).symm d) = ix2 p d := funext fun a => Fin.ext (by
    match a with
    | ⟨0, _⟩ => exact dotQK_lhs0 _ _
    | ⟨1, _⟩ => exact (dotQK_lhs1 _ _).trans hd)
  have er : dotQK.rhsIdx (ix2 p l) ((contrEquiv1 dotQK 64 rfl rfl).symm d) = ix2 l d := funext fun a => Fin.ext (by
    match a with
    | ⟨0, _⟩ => exact dotQK_rhs0 _ _
    | ⟨1, _⟩ => exact (dotQK_rhs1 _ _).trans hd)
  rw [el, er]

/-! ## The mixing product: rows × keys times keys × features, contracted over the keys -/

abbrev dotPV := dot_S1024x2048_S2048x64_S1024x64_1_0_0_1_n_n

theorem dotPV_lhs0 (i : S1024x64.Idx) (q : dotPV.contr.Idx) : (dotPV.lhsIdx i q 0).val = (i 0).val := by
  unfold DotDims.lhsIdx
  rw [dif_neg (show ¬(0 : Fin S1024x2048.rank) ∈ dotPV.lhsBatch by decide), dif_pos (show (0 : Fin S1024x2048.rank) ∈ dotPV.lhsNonContracting by decide)]
  rfl
theorem dotPV_lhs1 (i : S1024x64.Idx) (q : dotPV.contr.Idx) : (dotPV.lhsIdx i q 1).val = (q ⟨0, by decide⟩).val :=
  dotPV.lhsIdx_val_of_single rfl i q
theorem dotPV_rhs0 (i : S1024x64.Idx) (q : dotPV.contr.Idx) : (dotPV.rhsIdx i q 0).val = (q ⟨0, by decide⟩).val :=
  dotPV.rhsIdx_val_of_single rfl i q
theorem dotPV_rhs1 (i : S1024x64.Idx) (q : dotPV.contr.Idx) : (dotPV.rhsIdx i q 1).val = (i 1).val := by
  unfold DotDims.rhsIdx
  rw [dif_neg (show ¬(1 : Fin S2048x64.rank) ∈ dotPV.rhsBatch by decide), dif_pos (show (1 : Fin S2048x64.rank) ∈ dotPV.rhsNonContracting by decide)]
  rfl

/-- The mixing product into the zero accumulator, at (p, d): the sum over the keys of left (p, l) · right (l, d). -/
theorem matmulPV_apply (A : FVec Ideal S1024x2048 .f32) (B : FVec Ideal S2048x64 .f32) (p : Fin 1024) (d : Fin 64) :
    matmul dotPV (some .fp32) A B (constant (F := Ideal) S1024x64 .f32 0x00000000#32) (ix2 p d)
      = ∑ l : Fin 2048, A (ix2 p l) * B (ix2 l d) := by
  show FloatOps.matmul dotPV (some .fp32) A B (constant (F := Ideal) S1024x64 .f32 0x00000000#32) (ix2 p d) = _
  rw [Ideal.matmul_constant_zero_apply, ← Equiv.sum_comp (contrEquiv1 dotPV 2048 rfl rfl).symm]
  refine Finset.sum_congr rfl fun l _ => ?_
  have hl := contrEquiv1_symm_val dotPV 2048 rfl rfl l
  have el : dotPV.lhsIdx (ix2 p d) ((contrEquiv1 dotPV 2048 rfl rfl).symm l) = ix2 p l := funext fun a => Fin.ext (by
    match a with
    | ⟨0, _⟩ => exact dotPV_lhs0 _ _
    | ⟨1, _⟩ => exact (dotPV_lhs1 _ _).trans hl)
  have er : dotPV.rhsIdx (ix2 p d) ((contrEquiv1 dotPV 2048 rfl rfl).symm l) = ix2 l d := funext fun a => Fin.ext (by
    match a with
    | ⟨0, _⟩ => exact (dotPV_rhs0 _ _).trans hl
    | ⟨1, _⟩ => exact dotPV_rhs1 _ _)
  rw [el, er]

/-! ## The softmax of the rows of a score block -/

/-- Row `p`'s largest entry, from −∞. -/
def rowTop (S : FVec Ideal S1024x2048 .f32) (p : Fin 1024) : EReal :=
  (Finset.univ : Finset (Fin 2048)).fold max (Ideal.ofBits .f32 0xFF800000#32) (fun l => S (ix2 p l))

/-- The exponentials of the block shifted by each row's largest entry, as the body's vector operations. -/
def shifted (S : FVec Ideal S1024x2048 .f32) : FVec Ideal S1024x2048 .f32 :=
  exp (subf S (broadcastTo S1024x2048 (shapeCast S1024x1 (multiReduction .maximumf [1] S1024 S 0xFF800000#32 reduces_S1024x2048_S1024 (.inl rfl) rfl) shapeCasts_S1024_S1024x1) broadcasts_S1024x1_S1024x2048))

/-- The shifted exponentials over their row sums, as the body's vector operations. -/
def rowSoftmax (S : FVec Ideal S1024x2048 .f32) : FVec Ideal S1024x2048 .f32 :=
  divf (shifted S) (broadcastTo S1024x2048 (shapeCast S1024x1 (multiReduction .add [1] S1024 (shifted S) 0x00000000#32 reduces_S1024x2048_S1024 (.inl rfl) rfl) shapeCasts_S1024_S1024x1) broadcasts_S1024x1_S1024x2048)

theorem shifted_apply (S : FVec Ideal S1024x2048 .f32) (p : Fin 1024) (l : Fin 2048) :
    shifted S (ix2 p l) = Ideal.exp (S (ix2 p l) - rowTop S p) := by
  show Ideal.exp (S (ix2 p l) - broadcastTo S1024x2048 (shapeCast S1024x1 (multiReduction .maximumf [1] S1024 S 0xFF800000#32 reduces_S1024x2048_S1024 (.inl rfl) rfl) shapeCasts_S1024_S1024x1) broadcasts_S1024x1_S1024x2048 (ix2 p l)) = _
  refine congrArg (fun x => Ideal.exp (S (ix2 p l) - x)) ?_
  refine (broadcastTo_a1_ab_apply _ broadcasts_S1024x1_S1024x2048 p l (0 : Fin 1)).trans ?_
  refine (shapeCast_a_a1_apply _ shapeCasts_S1024_S1024x1 p (0 : Fin 1)).trans ?_
  exact laneMax_apply S 0xFF800000#32 reduces_S1024x2048_S1024 (.inl rfl) rfl p

theorem rowSoftmax_apply (S : FVec Ideal S1024x2048 .f32) (p : Fin 1024) (l : Fin 2048) :
    rowSoftmax S (ix2 p l)
      = Ideal.div (Ideal.exp (S (ix2 p l) - rowTop S p)) (∑ l' : Fin 2048, Ideal.exp (S (ix2 p l') - rowTop S p)) := by
  have hden : broadcastTo S1024x2048 (shapeCast S1024x1 (multiReduction .add [1] S1024 (shifted S) 0x00000000#32 reduces_S1024x2048_S1024 (.inl rfl) rfl) shapeCasts_S1024_S1024x1) broadcasts_S1024x1_S1024x2048 (ix2 p l)
      = ∑ l' : Fin 2048, shifted S (ix2 p l') :=
    (broadcastTo_a1_ab_apply _ broadcasts_S1024x1_S1024x2048 p l (0 : Fin 1)).trans
      ((shapeCast_a_a1_apply _ shapeCasts_S1024_S1024x1 p (0 : Fin 1)).trans
        (laneSum_apply (shifted S) 0x00000000#32 reduces_S1024x2048_S1024 (.inl rfl) rfl p))
  show Ideal.div (shifted S (ix2 p l)) _ = _
  rw [hden, shifted_apply]
  exact congrArg (Ideal.div _) (Finset.sum_congr rfl fun l' _ => shifted_apply S p l')

/-! ## The body's payloads -/

/-- The score block of the loaded query rows against the loaded keys. -/
def scoresOf (P0 : Vec Ideal S1x1024x64 .f32) (P1 : Vec Ideal S1x2048x64 .f32) : FVec Ideal S1024x2048 .f32 :=
  matmul dotQK (some .fp32) (shapeCast S1024x64 P0 shapeCasts_S1x1024x64_S1024x64 : FVec Ideal S1024x64 .f32)
    (shapeCast S2048x64 P1 shapeCasts_S1x2048x64_S2048x64 : FVec Ideal S2048x64 .f32) (constant S1024x2048 .f32 0x00000000#32)

theorem scoresOf_apply (P0 : Vec Ideal S1x1024x64 .f32) (P1 : Vec Ideal S1x2048x64 .f32) (p : Fin 1024) (l : Fin 2048) :
    scoresOf P0 P1 (ix2 p l) = score (qRow P0 p) (kvMat P1) l := by
  unfold scoresOf
  rw [matmulQK_apply]
  exact Finset.sum_congr rfl fun d _ => by rw [shapeCast_1ab_ab_apply, shapeCast_1ab_ab_apply]; rfl

/-- The probabilities' payload is the row softmax of the score block. -/
theorem pay1_eq (P0 : Vec Ideal S1x1024x64 .f32) (P1 : Vec Ideal S1x2048x64 .f32) :
    k0_pay1 (F := Ideal) P0 P1 = rowSoftmax (scoresOf P0 P1) := rfl

/-- Row `p` of the probabilities' payload: the attention weights of query row `p` of the block. -/
theorem pay1_apply (P0 : Vec Ideal S1x1024x64 .f32) (P1 : Vec Ideal S1x2048x64 .f32) (p : Fin 1024) (l : Fin 2048) :
    k0_pay1 (F := Ideal) P0 P1 (ix2 p l) = prob (qRow P0 p) (kvMat P1) l := by
  rw [pay1_eq, rowSoftmax_apply]
  have hs : ∀ l' : Fin 2048, scoresOf P0 P1 (ix2 p l') = score (qRow P0 p) (kvMat P1) l' := fun l' => scoresOf_apply P0 P1 p l'
  have ht : rowTop (scoresOf P0 P1) p = top (qRow P0 p) (kvMat P1) :=
    congrArg (fun f => (Finset.univ : Finset (Fin 2048)).fold max (Ideal.ofBits .f32 0xFF800000#32) f) (funext hs)
  rw [ht, hs]
  exact congrArg (Ideal.div _) (Finset.sum_congr rfl fun l' _ => by rw [hs]; rfl)

/-- The context's payload: the mixing product of the probabilities with the loaded values, under a leading unit axis. -/
theorem pay3_eq (P0 : Vec Ideal S1x1024x64 .f32) (P1 P2 : Vec Ideal S1x2048x64 .f32) :
    k0_pay3 (F := Ideal) P0 P1 P2 = shapeCast S1x1024x64 (matmul dotPV (some .fp32) (k0_pay1 (F := Ideal) P0 P1)
      (shapeCast S2048x64 P2 shapeCasts_S1x2048x64_S2048x64 : FVec Ideal S2048x64 .f32) (constant S1024x64 .f32 0x00000000#32)) shapeCasts_S1024x64_S1x1024x64 := rfl

/-- Row `p` of the context's payload: the output row of query row `p` of the block. -/
theorem pay3_apply (P0 : Vec Ideal S1x1024x64 .f32) (P1 P2 : Vec Ideal S1x2048x64 .f32) (u : Fin 1) (p : Fin 1024) (d : Fin 64) :
    k0_pay3 (F := Ideal) P0 P1 P2 (ix3 u p d) = mix (qRow P0 p) (kvMat P1) (kvMat P2) d := by
  rw [pay3_eq, shapeCast_ab_1ab_apply, matmulPV_apply]
  exact Finset.sum_congr rfl fun l _ => by rw [pay1_apply, shapeCast_1ab_ab_apply]; rfl

end Cert.BodyAttention

end
-- ==== Proof.BlocksAttention.lean ====
/-
  From the blocks to the two result arrays.

  The grid has 16 × 2 points.  Point (b, h) holds query rows 1024·h … 1024·h + 1023 of batch b, and all 2048
  keys and values of batch b, and writes rows 1024·h … 1024·h + 1023 of batch b of both results.  By
  `BodyAttention.lean` each written row is the attention of its query row against the keys and values of its
  batch, which is what `Attention.lean` asks of that row of the whole arrays; the 32 blocks cover both
  results, so after the run the results are the whole-array attention weights and context.
-/
import proofs.«166827_j77730318123152_2_alg».proof.Proof.Gen.KernelIdeal.Value
import proofs.«166827_j77730318123152_2_alg».proof.Proof.BodyAttention

noncomputable section

namespace Cert.KernelAttention

open Idealize.ShloMosaic Idealize.ShloMosaic.ValueIdx Idealize.ShloMosaic.TcCoe Idealize.SL.Sem
open Cert.KernelIdeal Cert.KernelIdeal.Gen Cert.Attention Cert.BodyAttention
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## What the body leaves in the two output buffers, row by row -/

/-- Row `p` of the probabilities' buffer: the attention weights of query row `p` of the loaded block. -/
theorem out4_apply (x0 : Vec Ideal S1x1024x64 .f32) (x1 x2 : Vec Ideal S1x2048x64 .f32) (u : Fin 1) (p : Fin 1024) (l : Fin 2048) :
    out0_4 x0 x1 x2 (ix3 u p l) = prob (qRow x0 p) (kvMat x1) l := by
  unfold out0_4
  rw [View.canon_unit_zero hz]
  simp only [View.ld_unit_zero (S := S1x1024x64) hz, View.ld_unit_zero (S := S1x2048x64) hz]
  rw [Cert.KernelIdeal.Value.lay4_0_eq, shapeCast_ab_1ab_apply, pay1_apply]

/-- Row `p` of the context's buffer: the output row of query row `p` of the loaded block. -/
theorem out3_apply (x0 : Vec Ideal S1x1024x64 .f32) (x1 x2 : Vec Ideal S1x2048x64 .f32) (u : Fin 1) (p : Fin 1024) (d : Fin 64) :
    out0_3 x0 x1 x2 (ix3 u p d) = mix (qRow x0 p) (kvMat x1) (kvMat x2) d := by
  unfold out0_3
  rw [View.canon_unit_zero hz]
  simp only [View.ld_unit_zero (S := S1x1024x64) hz, View.ld_unit_zero (S := S1x2048x64) hz]
  exact pay3_apply x0 x1 x2 u p d

/-! ## The windows' block indices over the grid -/

/-- At every grid point the queries' window and both results' windows sit at the same block (batch, half, 0), the
    keys' and the values' windows at (batch, 0, 0); there are 16 batches and 2 halves. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (0 : Fin 3) ≤ 15 ∧ win0_4.index t (1 : Fin 3) ≤ 1 ∧ win0_4.index t (2 : Fin 3) = 0 :=
  (by decide +kernel : ∀ t : Fin grid0.N, _)

/-- Every (batch, half) is some grid point's block. -/
theorem idx_onto : ∀ (q0 : Fin 16) (q1 : Fin 2), ∃ t : Fin cfg0.N, win0_4.index t = ![q0.val, q1.val, 0] :=
  (by decide +kernel : ∀ (q0 : Fin 16) (q1 : Fin 2), ∃ t : Fin grid0.N, win0_4.index t = ![q0.val, q1.val, 0])

/-! ## The input blocks are rows of the argument arrays -/

/-- The queries' block at a point of batch `b`: its row `p` is row `r` of the batch, `r` the half's first row plus `p`. -/
theorem iblk0_apply (c : Dev nD) (t : Fin cfg0.N) (u : Fin 1) (p : Fin 1024) (d : Fin 64) (b : Fin 16) (r : Fin 2048)
    (hb : win0_4.index t (0 : Fin 3) = b.val) (hr : win0_4.index t (1 : Fin 3) * 1024 + p.val = r.val) :
    (iblk m c 0 t : Vec Ideal S1x1024x64 .f32) (ix3 u p d) = (V m c main_arg0 : S16x2048x64.Idx → EReal) (ix3 b r d) := by
  obtain ⟨e0, e1, e2, -⟩ := idx_facts t
  have hu : u.val = 0 := by omega
  show V m c main_arg0 (((cfg0.win 0).blk t).view.emb (ix3 u p d)) = _
  refine congrArg (V m c main_arg0) (funext fun a => Fin.ext ?_)
  match a with
  | ⟨0, _⟩ => show win0_0.index t (0 : Fin 3) * 1 + 1 * u.val = b.val; omega
  | ⟨1, _⟩ => show win0_0.index t (1 : Fin 3) * 1024 + 1 * p.val = r.val; omega
  | ⟨2, _⟩ => show win0_0.index t (2 : Fin 3) * 64 + 1 * d.val = d.val; omega

/-- The keys' block at a point of batch `b` is the whole batch. -/
theorem iblk1_apply (c : Dev nD) (t : Fin cfg0.N) (u : Fin 1) (l : Fin 2048) (d : Fin 64) (b : Fin 16)
    (hb : win0_4.index t (0 : Fin 3) = b.val) :
    (iblk m c 1 t : Vec Ideal S1x2048x64 .f32) (ix3 u l d) = (V m c main_arg1 : S16x2048x64.Idx → EReal) (ix3 b l d) := by
  obtain ⟨-, -, -, e0, e1, e2, -⟩ := idx_facts t
  have hu : u.val = 0 := by omega
  show V m c main_arg1 (((cfg0.win 1).blk t).view.emb (ix3 u l d)) = _
  refine congrArg (V m c main_arg1) (funext fun a => Fin.ext ?_)
  match a with
  | ⟨0, _⟩ => show win0_1.index t (0 : Fin 3) * 1 + 1 * u.val = b.val; omega
  | ⟨1, _⟩ => show win0_1.index t (1 : Fin 3) * 2048 + 1 * l.val = l.val; omega
  | ⟨2, _⟩ => show win0_1.index t (2 : Fin 3) * 64 + 1 * d.val = d.val; omega

/-- The values' block at a point of batch `b` is the whole batch. -/
theorem iblk2_apply (c : Dev nD) (t : Fin cfg0.N) (u : Fin 1) (l : Fin 2048) (d : Fin 64) (b : Fin 16)
    (hb : win0_4.index t (0 : Fin 3) = b.val) :
    (iblk m c 2 t : Vec Ideal S1x2048x64 .f32) (ix3 u l d) = (V m c main_arg2 : S16x2048x64.Idx → EReal) (ix3 b l d) := by
  obtain ⟨-, -, -, -, -, -, e0, e1, e2, -⟩ := idx_facts t
  have hu : u.val = 0 := by omega
  show V m c main_arg2 (((cfg0.win 2).blk t).view.emb (ix3 u l d)) = _
  refine congrArg (V m c main_arg2) (funext fun a => Fin.ext ?_)
  match a with
  | ⟨0, _⟩ => show win0_2.index t (0 : Fin 3) * 1 + 1 * u.val = b.val; omega
  | ⟨1, _⟩ => show win0_2.index t (1 : Fin 3) * 2048 + 1 * l.val = l.val; omega
  | ⟨2, _⟩ => show win0_2.index t (2 : Fin 3) * 64 + 1 * d.val = d.val; omega

theorem qRow_iblk (c : Dev nD) (t : Fin cfg0.N) (p : Fin 1024) (b : Fin 16) (r : Fin 2048)
    (hb : win0_4.index t (0 : Fin 3) = b.val) (hr : win0_4.index t (1 : Fin 3) * 1024 + p.val = r.val) :
    qRow (iblk m c 0 t) p = rowOf (V m c main_arg0) b r :=
  funext fun d => iblk0_apply m c t 0 p d b r hb hr

theorem kMat_iblk (c : Dev nD) (t : Fin cfg0.N) (b : Fin 16) (hb : win0_4.index t (0 : Fin 3) = b.val) :
    kvMat (iblk m c 1 t) = matOf (V m c main_arg1) b :=
  funext fun l => funext fun d => iblk1_apply m c t 0 l d b hb

theorem vMat_iblk (c : Dev nD) (t : Fin cfg0.N) (b : Fin 16) (hb : win0_4.index t (0 : Fin 3) = b.val) :
    kvMat (iblk m c 2 t) = matOf (V m c main_arg2) b :=
  funext fun l => funext fun d => iblk2_apply m c t 0 l d b hb

/-! ## What each point writes back -/

/-- The probabilities a point leaves, at a block index, are the whole-array attention weights at the array index under it. -/
theorem wrote4_at (c : Dev nD) (t : Fin cfg0.N) (y : S1x1024x2048.Idx) :
    out0_4 (iblk m c 0 t) (iblk m c 1 t) (iblk m c 2 t) y
      = weights (V m c main_arg0) (V m c main_arg1) (((cfg0.win 4).blk t).view.emb y) := by
  obtain ⟨-, -, -, -, -, -, -, -, -, -, -, -, h0, h1, h2⟩ := idx_facts t
  obtain ⟨u, p, l, rfl⟩ : ∃ (u : Fin 1) (p : Fin 1024) (l : Fin 2048), y = ix3 u p l := ⟨y 0, y 1, y 2, eq_ix3 y⟩
  have hu : u.val = 0 := by omega
  have hp : p.val < 1024 := p.isLt
  obtain ⟨b, hb⟩ : ∃ b : Fin 16, win0_4.index t (0 : Fin 3) = b.val := ⟨⟨win0_4.index t (0 : Fin 3), by omega⟩, rfl⟩
  obtain ⟨r, hr⟩ : ∃ r : Fin 2048, win0_4.index t (1 : Fin 3) * 1024 + p.val = r.val :=
    ⟨⟨win0_4.index t (1 : Fin 3) * 1024 + p.val, by omega⟩, rfl⟩
  have he : ((cfg0.win 4).blk t).view.emb (ix3 u p l) = ix3 b r l :=
    funext fun a => Fin.ext (by
      match a with
      | ⟨0, _⟩ => show win0_4.index t (0 : Fin 3) * 1 + 1 * u.val = b.val; omega
      | ⟨1, _⟩ => show win0_4.index t (1 : Fin 3) * 1024 + 1 * p.val = r.val; omega
      | ⟨2, _⟩ => show win0_4.index t (2 : Fin 3) * 2048 + 1 * l.val = l.val; omega)
  rw [he, weights_apply, out4_apply, qRow_iblk m c t p b r hb hr, kMat_iblk m c t b hb]

/-- The context a point leaves, at a block index, is the whole-array context at the array index under it. -/
theorem wrote3_at (c : Dev nD) (t : Fin cfg0.N) (y : S1x1024x64.Idx) :
    out0_3 (iblk m c 0 t) (iblk m c 1 t) (iblk m c 2 t) y
      = context (V m c main_arg0) (V m c main_arg1) (V m c main_arg2) (((cfg0.win 3).blk t).view.emb y) := by
  obtain ⟨-, -, -, -, -, -, -, -, -, e0, e1, e2, h0, h1, h2⟩ := idx_facts t
  obtain ⟨u, p, d, rfl⟩ : ∃ (u : Fin 1) (p : Fin 1024) (d : Fin 64), y = ix3 u p d := ⟨y 0, y 1, y 2, eq_ix3 y⟩
  have hu : u.val = 0 := by omega
  have hp : p.val < 1024 := p.isLt
  obtain ⟨b, hb⟩ : ∃ b : Fin 16, win0_4.index t (0 : Fin 3) = b.val := ⟨⟨win0_4.index t (0 : Fin 3), by omega⟩, rfl⟩
  obtain ⟨r, hr⟩ : ∃ r : Fin 2048, win0_4.index t (1 : Fin 3) * 1024 + p.val = r.val :=
    ⟨⟨win0_4.index t (1 : Fin 3) * 1024 + p.val, by omega⟩, rfl⟩
  have he : ((cfg0.win 3).blk t).view.emb (ix3 u p d) = ix3 b r d :=
    funext fun a => Fin.ext (by
      match a with
      | ⟨0, _⟩ => show win0_3.index t (0 : Fin 3) * 1 + 1 * u.val = b.val; omega
      | ⟨1, _⟩ => show win0_3.index t (1 : Fin 3) * 1024 + 1 * p.val = r.val; omega
      | ⟨2, _⟩ => show win0_3.index t (2 : Fin 3) * 64 + 1 * d.val = d.val; omega)
  rw [he, context_apply, out3_apply, qRow_iblk m c t p b r hb hr, kMat_iblk m c t b hb, vMat_iblk m c t b hb]

/-- What point `t` writes back to the attention weights' array is block `t` of the whole-array attention weights. -/
theorem flushed4_eq (c : Dev nD) (t : Fin cfg0.N) :
    (dats m 0 c).flushed 4 t = ((cfg0.win 4).blk t).view.read (Elt Ideal) (weights (V m c main_arg0) (V m c main_arg1)) := by
  rw [Cert.KernelIdeal.Value.flushed4]
  funext y
  exact wrote4_at m c t y

/-- What point `t` writes back to the context's array is block `t` of the whole-array context. -/
theorem flushed3_eq (c : Dev nD) (t : Fin cfg0.N) :
    (dats m 0 c).flushed 3 t = ((cfg0.win 3).blk t).view.read (Elt Ideal) (context (V m c main_arg0) (V m c main_arg1) (V m c main_arg2)) := by
  rw [Cert.KernelIdeal.Value.flushed3]
  funext y
  exact wrote3_at m c t y

/-! ## The blocks cover both arrays -/

/-- An index of the attention weights' array is in point `t`'s block iff each coordinate is in the block's range on its axis. -/
theorem mem_blk4 (t : Fin cfg0.N) (i : S16x2048x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v0_1).slice (win0_4.rect t)).set ↔ _
  rw [View.set_slice_whole, Rect.mem_set_unit]
  exact Iff.rfl

/-- An index of the context's array is in point `t`'s block iff each coordinate is in the block's range on its axis. -/
theorem mem_blk3 (t : Fin cfg0.N) (i : S16x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v0_0).slice (win0_3.rect t)).set ↔ _
  rw [View.set_slice_whole, Rect.mem_set_unit]
  exact Iff.rfl

/-- Row `r` of batch `b` of the attention weights is written by the point (b, r / 1024). -/
theorem cover4 (i : S16x2048x2048.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- Row `r` of batch `b` of the context is written by the point (b, r / 1024). -/
theorem cover3 (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  obtain ⟨-, -, -, -, -, -, -, -, -, e0, e1, e2, -⟩ := idx_facts t
  have q0 : win0_4.index t (0 : Fin 3) = (i 0).val := congrFun ht 0
  have q1 : win0_4.index t (1 : Fin 3) = (i 1).val / 1024 := congrFun ht 1
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ## The arrays after the run -/

/-- After the run the second result holds the attention weights of the argument arrays. -/
theorem final4 (c : Dev nD) : (dats m 0 c).arrAt 4 cfg0.N
    = weights (m ((c : Thread nD τ).loc main_arg0)) (m ((c : Thread nD τ).loc main_arg1)) :=
  (dats m 0 c).arrAt_eq_of_cover 4 (weights (V m c main_arg0) (V m c main_arg1)) (fun t _ => flushed4_eq m c t) cover4

/-- After the run the first result holds the context of the argument arrays. -/
theorem final3 (c : Dev nD) : (dats m 0 c).arrAt 3 cfg0.N
    = context (m ((c : Thread nD τ).loc main_arg0)) (m ((c : Thread nD τ).loc main_arg1)) (m ((c : Thread nD τ).loc main_arg2)) :=
  (dats m 0 c).arrAt_eq_of_cover 3 (context (V m c main_arg0) (V m c main_arg1) (V m c main_arg2)) (fun t _ => flushed3_eq m c t) cover3

/-- The kernel's run: every weakly fair execution terminates with the first result at the context and the second at
    the attention weights of the argument arrays, the arguments unchanged. -/
theorem run : θ_run defs (onTc (τ := τ) (main (F := Ideal))) ⟨m, fun _ => 0, ρ⟩ fun r => ∀ c : Dev nD,
      r.2.mem ((c : Thread nD τ).loc main_v0_0)
        = context (m ((c : Thread nD τ).loc main_arg0)) (m ((c : Thread nD τ).loc main_arg1)) (m ((c : Thread nD τ).loc main_arg2))
      ∧ r.2.mem ((c : Thread nD τ).loc main_v0_1)
        = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelAttention

end
-- ==== Proof.lean ====
/-
  Softmax attention computed block by block equals softmax attention computed whole.

  The kernel walks a 16 × 2 grid; at each point it holds 1024 query rows of one batch with that batch's 2048
  keys and values, and writes those rows of the attention weights and of the context.  The reference computes
  both results for all rows at once.  Row by row they are the same extended-real function of the arguments:
  the dot-product scores, shifted by their row maximum taken from −∞, exponentiated, divided by their row sum,
  and mixed with the values (`Proof/Attention.lean`).  `Proof/RefAttention.lean` reads the reference's results
  as that function, `Proof/BodyAttention.lean` the kernel body's two stores, `Proof/BlocksAttention.lean` lays the
  32 blocks over the two result arrays.  No rewrite was applied in idealizing the kernel, and the law that joins
  the two sides needs no finiteness: the only difference in the operations, a maximum with −∞, is the identity on
  every extended real.
-/
import proofs.«166827_j77730318123152_2_alg».proof.Defs
import proofs.«166827_j77730318123152_2_alg».proof.Proof.Gen.Kernel
import proofs.«166827_j77730318123152_2_alg».proof.Proof.Gen.Kernel.Skeleton
import proofs.«166827_j77730318123152_2_alg».proof.Proof.Gen.Kernel.Launch
import proofs.«166827_j77730318123152_2_alg».proof.Proof.Gen.Kernel.Points
import proofs.«166827_j77730318123152_2_alg».proof.Proof.Gen.Kernel.Frame
import proofs.«166827_j77730318123152_2_alg».proof.Proof.Gen.KernelIdeal
import proofs.«166827_j77730318123152_2_alg».proof.Proof.Gen.KernelIdeal.Skeleton
import proofs.«166827_j77730318123152_2_alg».proof.Proof.Gen.KernelIdeal.Launch
import proofs.«166827_j77730318123152_2_alg».proof.Proof.Gen.KernelIdeal.Points
import proofs.«166827_j77730318123152_2_alg».proof.Proof.Gen.KernelIdeal.Frame
import proofs.«166827_j77730318123152_2_alg».proof.Proof.Gen.ReferenceIdeal
import proofs.«166827_j77730318123152_2_alg».proof.Proof.Gen.Pre_finite_inputs
import proofs.«166827_j77730318123152_2_alg».proof.Proof.Gen.KernelIdeal.Value
import proofs.«166827_j77730318123152_2_alg».proof.Proof.Gen.ReferenceIdeal.Run
import proofs.«166827_j77730318123152_2_alg».proof.Proof.Gen.ReferenceIdeal.Read
import proofs.«166827_j77730318123152_2_alg».proof.Proof.RefAttention
import proofs.«166827_j77730318123152_2_alg».proof.Proof.BlocksAttention
import Idealize.ShloMosaic.Adequacy
import Idealize.ShloMosaic.Init

noncomputable section

namespace Cert.Proof

open Idealize.ShloMosaic Idealize.ShloMosaic.TcCoe Idealize.SL.Sem Cert.Attention

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Idealizing the kernel rewrote no operation. -/
theorem preserves : Cert.preserves_Kernel_KernelIdeal := trivial

/-- From memories agreeing on the three arguments both programs end with the context in their first result and the
    attention weights in their second: the kernel's blocks laid over the arrays, the reference's operations read
    row by row. -/
theorem algebraic : Cert.algebraic_KernelIdeal_ReferenceIdeal := by
  intro m ρ m' ρ' _ hagree
  refine ⟨fun c => context (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => weights (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelAttention.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v12_eq, Cert.RefAttention.context_eq, (hagree c).1, (hagree c).2.1, (hagree c).2.2]
  · rw [(h c).2.1, Cert.ReferenceIdeal.Read.val_main_v11_eq, Cert.RefAttention.weights_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
